-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x640000 : Shape := ⟨2, ![2, 640000]⟩
abbrev S640000 : Shape := ⟨1, ![640000]⟩
abbrev S100000x128 : Shape := ⟨2, ![100000, 128]⟩
abbrev S128x128 : Shape := ⟨2, ![128, 128]⟩
abbrev S128 : Shape := ⟨1, ![128]⟩
abbrev S128x1000 : Shape := ⟨2, ![128, 1000]⟩
abbrev S1000 : Shape := ⟨1, ![1000]⟩
abbrev S_ : Shape := ⟨0, ![]⟩

class Facts : Prop where
  bcast_S_S640000 : S_.BroadcastsInDim S640000 (![] : Fin 0 → Fin S640000.rank)
  reducesTo_S640000_S_d0 : S640000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1000 : S_.BroadcastsInDim S128x1000 (![] : Fin 0 → Fin S128x1000.rank)
  reducesTo_S128x1000_S_d0_1 : S128x1000.ReducesTo [0, 1] S_
  bcast_S_S1000 : S_.BroadcastsInDim S1000 (![] : Fin 0 → Fin S1000.rank)
  reducesTo_S1000_S_d0 : S1000.ReducesTo [0] S_

variable [Facts]

def fn_part2 {F : FTy → Type} [FloatOps F] (main_arg8 : FVec F S1000 .f32) (main_v33 : IVec S_ 1) : IVec S_ 1 :=
  let main_v34 : FVec F S1000 .f32 := Host.absf main_arg8
  let main_cst_12 : FVec F S_ .f32 := constant S_ .f32 0x7F800000#32
  let main_v35 : FVec F S1000 .f32 := broadcastInDim S1000 ![] bcast_S_S1000 main_cst_12
  let main_v36 : IVec S1000 1 := cmpf .olt main_v34 main_v35
  let main_c_13 : IVec S_ 1 := constantI S_ 1 1#1
  let main_v37 : IVec S_ 1 := (fun x v => Host.reduce IntOp.andi x v reducesTo_S1000_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x1000 .f32) (main_arg8 : FVec F S1000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1000 .f32 := Host.absf main_arg7
  let main_cst_10 : FVec F S_ .f32 := constant S_ .f32 0x7F800000#32
  let main_v30 : FVec F S128x1000 .f32 := broadcastInDim S128x1000 ![] bcast_S_S128x1000 main_cst_10
  let main_v31 : IVec S128x1000 1 := cmpf .olt main_v29 main_v30
  let main_c_11 : IVec S_ 1 := constantI S_ 1 1#1
  let main_v32 : IVec S_ 1 := (fun x v => Host.reduce IntOp.andi x v reducesTo_S128x1000_S_d0_1 h_S_) main_v31 main_c_11
  let main_v33 : IVec S_ 1 := andi main_v28 main_v32
  fn_part2 (F := F) main_arg8 main_v33

def fn {F : FTy → Type} [FloatOps F] (main_arg0 : IVec S2x640000 32) (main_arg1 : FVec F S640000 .f32) (main_arg2 : FVec F S100000x128 .f32) (main_arg3 : FVec F S128x128 .f32) (main_arg4 : FVec F S128 .f32) (main_arg5 : FVec F S128x128 .f32) (main_arg6 : FVec F S128 .f32) (main_arg7 : FVec F S128x1000 .f32) (main_arg8 : FVec F S1000 .f32) : IVec S_ 1 :=
  let main_v0 : FVec F S640000 .f32 := Host.absf main_arg1
  let main_cst : FVec F S_ .f32 := constant S_ .f32 0x7F800000#32
  let main_v1 : FVec F S640000 .f32 := broadcastInDim S640000 ![] bcast_S_S640000 main_cst
  let main_v2 : IVec S640000 1 := cmpf .olt main_v0 main_v1
  let main_c : IVec S_ 1 := constantI S_ 1 1#1
  let main_v3 : IVec S_ 1 := (fun x v => Host.reduce IntOp.andi x v reducesTo_S640000_S_d0 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S2x640000 : Shape := ⟨2, ![2, 640000]⟩
abbrev S640000 : Shape := ⟨1, ![640000]⟩
abbrev S100000x128 : Shape := ⟨2, ![100000, 128]⟩
abbrev S128x128 : Shape := ⟨2, ![128, 128]⟩
abbrev S128 : Shape := ⟨1, ![128]⟩
abbrev S128x1000 : Shape := ⟨2, ![128, 1000]⟩
abbrev S1000 : Shape := ⟨1, ![1000]⟩
abbrev S1x640000 : Shape := ⟨2, ![1, 640000]⟩
abbrev S_ : Shape := ⟨0, ![]⟩
abbrev S100000 : Shape := ⟨1, ![100000]⟩
abbrev S640000x1 : Shape := ⟨2, ![640000, 1]⟩
abbrev S5000x128 : Shape := ⟨2, ![5000, 128]⟩
abbrev S640000x128 : Shape := ⟨2, ![640000, 128]⟩
abbrev S1x128 : Shape := ⟨2, ![1, 128]⟩
abbrev S1x1000 : Shape := ⟨2, ![1, 1000]⟩
abbrev S100000x1000 : Shape := ⟨2, ![100000, 1000]⟩
abbrev S2000x128 : Shape := ⟨2, ![2000, 128]⟩
abbrev S2000x1000 : Shape := ⟨2, ![2000, 1000]⟩

abbrev nBuf : Space → Nat
  | .hbm => 90
  | .vmem => 16
  | .smem => 0
  | _ => 0

abbrev bufTy : (tb : Table) → Fin (tcTables nBuf tb) → BufTy
  | .hbm, ⟨0, _⟩ => ⟨S2x640000, .i32⟩
  | .hbm, ⟨1, _⟩ => ⟨S640000, .f32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1000, .f32⟩
  | .hbm, ⟨8, _⟩ => ⟨S1000, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S100000, .f32⟩
  | .hbm, ⟨15, _⟩ => ⟨S640000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000, .f32⟩
  | .hbm, ⟨37, _⟩ => ⟨S640000, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000, .f32⟩
  | .hbm, ⟨47, _⟩ => ⟨S640000, .f32⟩
  | .hbm, ⟨48, _⟩ => ⟨S100000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S640000x1, .f32⟩
  | .hbm, ⟨59, _⟩ => ⟨S640000x128, .f32⟩
  | .hbm, ⟨60, _⟩ => ⟨S640000x128, .f32⟩
  | .hbm, ⟨61, _⟩ => ⟨S_, .f32⟩
  | .hbm, ⟨62, _⟩ => ⟨S100000x128, .f32⟩
  | .hbm, ⟨63, _⟩ => ⟨S640000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S640000, .i32⟩
  | .hbm, ⟨71, _⟩ => ⟨S640000, .i1⟩
  | .hbm, ⟨72, _⟩ => ⟨S_, .i32⟩
  | .hbm, ⟨73, _⟩ => ⟨S640000, .i32⟩
  | .hbm, ⟨74, _⟩ => ⟨S640000, .i32⟩
  | .hbm, ⟨75, _⟩ => ⟨S640000, .i32⟩
  | .hbm, ⟨76, _⟩ => ⟨S640000x1, .i32⟩
  | .hbm, ⟨77, _⟩ => ⟨S640000x128, .f32⟩
  | .hbm, ⟨78, _⟩ => ⟨S640000x1, .f32⟩
  | .hbm, ⟨79, _⟩ => ⟨S640000x128, .f32⟩
  | .hbm, ⟨80, _⟩ => ⟨S640000x128, .f32⟩
  | .hbm, ⟨81, _⟩ => ⟨S_, .f32⟩
  | .hbm, ⟨82, _⟩ => ⟨S100000x128, .f32⟩
  | .hbm, ⟨83, _⟩ => ⟨S640000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S1x1000, .f32⟩
  | .hbm, ⟨89, _⟩ => ⟨S100000x1000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S128x1000, .f32⟩
  | .local _ .vmem, ⟨13, _⟩ => ⟨S1x1000, .f32⟩
  | .local _ .vmem, ⟨14, _⟩ => ⟨S2000x1000, .f32⟩
  | .local _ .vmem, ⟨15, _⟩ => ⟨S2000x1000, .f32⟩
  | _, _ => ⟨S2x640000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S100000 : S_.BroadcastsInDim S100000 (![] : Fin 0 → Fin S100000.rank)
  bcast_S640000_S640000x1_0 : S640000.BroadcastsInDim S640000x1 (![0] : Fin 1 → Fin S640000x1.rank)
  bcast_S_S640000 : S_.BroadcastsInDim S640000 (![] : Fin 0 → Fin S640000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  shapeCasts_S1000_S1x1000 : S1000.ShapeCasts S1x1000
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x1000_S128x1000_0_0 : ∀ a, (![0, 0] : Fin 2 → Nat) a + S128x1000.size a ≤ S128x1000.size a
  h_S128x1000 : 0 < S128x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S2000x1000 : S1x1000.Broadcasts S2000x1000
  inb_S2000x1000_S2000x1000_0_0 : ∀ a, (![0, 0] : Fin 2 → Nat) a + S2000x1000.size a ≤ S2000x1000.size a
  h_S2000x1000 : 0 < S2000x1000.numel
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x1000_S2000x1000_1_0_0_1_n_n_wf : DotDims.WF S2000x128 S128x1000 S2000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1000.size a ≤ S128x1000.size a
  hwx2_1 : ∀ i : grid2.Coords, EltTy.bits .f32 = 32 ∨ (Rect.block (s := S128x1000) S128x1000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1000.size a ≤ S1x1000.size a
  hwx2_2 : ∀ i : grid2.Coords, EltTy.bits .f32 = 32 ∨ (Rect.block (s := S1x1000) S1x1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1000.size a ≤ S100000x1000.size a
  hwx2_3 : ∀ i : grid2.Coords, EltTy.bits .f32 = 32 ∨ (Rect.block (s := S100000x1000) S2000x1000.size (cc2_transform_3 i) (hinb2_3 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x1000_S2000x1000_1_0_0_1_n_n : DotDims S2000x128 S128x1000 S2000x1000 where
  lhsContracting := [1]
  rhsContracting := [0]
  lhsNonContracting := [0]
  rhsNonContracting := [1]
  lhsBatch := []
  rhsBatch := []
  wf := dot_S2000x128_S128x1000_S2000x1000_1_0_0_1_n_n_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x1000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x1000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S2000x1000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x640000 : Shape := ⟨2, ![2, 640000]⟩
abbrev S640000 : Shape := ⟨1, ![640000]⟩
abbrev S100000x128 : Shape := ⟨2, ![100000, 128]⟩
abbrev S128x128 : Shape := ⟨2, ![128, 128]⟩
abbrev S128 : Shape := ⟨1, ![128]⟩
abbrev S128x1000 : Shape := ⟨2, ![128, 1000]⟩
abbrev S1000 : Shape := ⟨1, ![1000]⟩
abbrev S1x640000 : Shape := ⟨2, ![1, 640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S1x128 : Shape := ⟨2, ![1, 128]⟩
abbrev S100000x1000 : Shape := ⟨2, ![100000, 1000]⟩
abbrev S1x1000 : Shape := ⟨2, ![1, 1000]⟩

abbrev nBuf : Space → Nat
  | .hbm => 131
  | .vmem => 0
  | .smem => 0
  | _ => 0

abbrev hbmTy0_0 (i : Nat) : BufTy := match i % 128 with
  | 0 => ⟨S2x640000, .i32⟩
  | 1 => ⟨S640000, .f32⟩
  | 2 => ⟨S100000x128, .f32⟩
  | 3 => ⟨S128x128, .f32⟩
  | 4 => ⟨S128, .f32⟩
  | 5 => ⟨S128x128, .f32⟩
  | 6 => ⟨S128, .f32⟩
  | 7 => ⟨S128x1000, .f32⟩
  | 8 => ⟨S1000, .f32⟩
  | 9 => ⟨S1x640000, .i32⟩
  | 10 => ⟨S640000, .i32⟩
  | 11 => ⟨S1x640000, .i32⟩
  | 12 => ⟨S640000, .i32⟩
  | 13 => ⟨S_, .f32⟩
  | 14 => ⟨S100000, .f32⟩
  | 15 => ⟨S640000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000, .f32⟩
  | 37 => ⟨S640000, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S640000, .f32⟩
  | 47 => ⟨S640000, .f32⟩
  | 48 => ⟨S100000x128, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000x128, .f32⟩
  | 58 => ⟨S640000x1, .f32⟩
  | 59 => ⟨S640000x128, .f32⟩
  | 60 => ⟨S640000x128, .f32⟩
  | 61 => ⟨S_, .f32⟩
  | 62 => ⟨S100000x128, .f32⟩
  | 63 => ⟨S640000x1, .i32⟩
  | 64 => ⟨S100000x128, .f32⟩
  | 65 => ⟨S1x128, .f32⟩
  | 66 => ⟨S100000x128, .f32⟩
  | 67 => ⟨S100000x128, .f32⟩
  | 68 => ⟨S1x640000, .i32⟩
  | 69 => ⟨S640000, .i32⟩
  | 70 => ⟨S1x640000, .i32⟩
  | 71 => ⟨S640000, .i32⟩
  | 72 => ⟨S_, .f32⟩
  | 73 => ⟨S100000, .f32⟩
  | 74 => ⟨S640000x1, .i32⟩
  | 75 => ⟨S100000, .f32⟩
  | 76 => ⟨S_, .f32⟩
  | 77 => ⟨S100000, .f32⟩
  | 78 => ⟨S100000, .i1⟩
  | 79 => ⟨S_, .f32⟩
  | 80 => ⟨S100000, .f32⟩
  | 81 => ⟨S100000, .f32⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S640000, .f32⟩
  | 96 => ⟨S640000, .f32⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S640000, .f32⟩
  | 106 => ⟨S640000, .f32⟩
  | 107 => ⟨S100000x128, .f32⟩
  | 108 => ⟨S_, .i32⟩
  | 109 => ⟨S640000, .i32⟩
  | 110 => ⟨S640000, .i1⟩
  | 111 => ⟨S_, .i32⟩
  | 112 => ⟨S640000, .i32⟩
  | 113 => ⟨S640000, .i32⟩
  | 114 => ⟨S640000, .i32⟩
  | 115 => ⟨S640000x1, .i32⟩
  | 116 => ⟨S640000x128, .f32⟩
  | 117 => ⟨S640000x1, .f32⟩
  | 118 => ⟨S640000x128, .f32⟩
  | 119 => ⟨S640000x128, .f32⟩
  | 120 => ⟨S_, .f32⟩
  | 121 => ⟨S100000x128, .f32⟩
  | 122 => ⟨S640000x1, .i32⟩
  | 123 => ⟨S100000x128, .f32⟩
  | 124 => ⟨S1x128, .f32⟩
  | 125 => ⟨S100000x128, .f32⟩
  | 126 => ⟨S100000x128, .f32⟩
  | 127 => ⟨S100000x1000, .f32⟩
  | _ => ⟨S2x640000, .i32⟩

abbrev hbmTy0_1 (i : Nat) : BufTy := match i % 128 with
  | 0 => ⟨S1x1000, .f32⟩
  | 1 => ⟨S100000x1000, .f32⟩
  | 2 => ⟨S100000x1000, .f32⟩
  | _ => ⟨S2x640000, .i32⟩

abbrev hbmTy (i : Nat) : BufTy := match i / 128 with
  | 0 => hbmTy0_0 i
  | 1 => hbmTy0_1 i
  | _ => ⟨S2x640000, .i32⟩

abbrev bufTy : (tb : Table) → Fin (tcTables nBuf tb) → BufTy
  | .hbm, ⟨i, _⟩ => hbmTy i
  | _, _ => ⟨S2x640000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_c_18 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S100000 : S_.BroadcastsInDim S100000 (![] : Fin 0 → Fin S100000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1000_S1x1000_1 : S1000.BroadcastsInDim S1x1000 (![1] : Fin 1 → Fin S1x1000.rank)
  bcast_S1x1000_S100000x1000_0_1 : S1x1000.BroadcastsInDim S100000x1000 (![0, 1] : Fin 2 → Fin S100000x1000.rank)
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x1000_S100000x1000_1_0_0_1_n_n_wf : DotDims.WF S100000x128 S128x1000 S100000x1000 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x1000_S100000x1000_1_0_0_1_n_n : DotDims S100000x128 S128x1000 S100000x1000 where
  lhsContracting := [1]
  rhsContracting := [0]
  lhsNonContracting := [0]
  rhsNonContracting := [1]
  lhsBatch := []
  rhsBatch := []
  wf := dot_S100000x128_S128x1000_S100000x1000_1_0_0_1_n_n_wf

class Facts : Prop extends Facts₀ where

variable [Facts]
-- ==== Proof.KernelResult.lean ====
/-
  The run of the three-call program with its RESULT named.

  The program is eight segments: three stretches of host operations, the first matrix product, a stretch of host
  operations, the second matrix product, a stretch of host operations, the projection. The buffer contents at each
  segment boundary are a fold from the launch memory: a stretch applies its operations, a call leaves in each of
  its arrays what its write-backs leave there and every other buffer as it found it. Every weakly fair execution ends
  with every unscoped buffer at the last boundary's contents; read at the result buffer this is what the projection's
  write-backs leave in its output array, and read at an argument it is the launch contents.
-/
import proofs.«137804_j46986942218300_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Result

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.MatmulEntry.lean ====
/-
  The three kernel bodies, each read at one entry of the block it stores.

  Each body loads a block of rows x and the whole weight matrix w, narrows both to bf16 (no change of value on the
  exact reals) and multiplies them into a zero accumulator: the stored block has, at row r and column c,
  Σ_k x(r, k) · w(k, c). The projection's body adds the bias row to every row of that product.
-/
import proofs.«137804_j46986942218300_1_alg».proof.Proof.Gen.KernelIdeal.Skeleton
import proofs.«137804_j46986942218300_1_alg».proof.Proof.LibPlainMatmul
import Idealize.ShloMosaic.Lib.ValueLayout
import Idealize.ShloMosaic.Lib.Pipeline.Value

noncomputable section

namespace Cert.KernelIdeal.Entry

open Idealize.ShloMosaic Idealize.ShloMosaic.ValueIdx Cert.KernelIdeal Cert.KernelIdeal.Gen

/-- The first product's block: 5000 rows of the node features against the 128 × 128 weights. -/
theorem pay0_apply (x : Vec Ideal S5000x128 .f32) (w : Vec Ideal S128x128 .f32) (r : Fin 5000) (c : Fin 128) :
    k0_pay1 (F := Ideal) x w (ix2 r c) = ∑ k : Fin 128, x (ix2 r k) * w (ix2 k c) :=
  PlainMatmul.apply_zero (M := 5000) (K := 128) (N := 128) (φ₁ := .bf16) (φ₂ := .bf16) x w r c

/-- The second product's block: the same, its rows first cast to their own shape. -/
theorem pay1_apply (x : Vec Ideal S5000x128 .f32) (w : Vec Ideal S128x128 .f32) (r : Fin 5000) (c : Fin 128) :
    k1_pay1 (F := Ideal) x w (ix2 r c) = ∑ k : Fin 128, x (ix2 r k) * w (ix2 k c) := by
  unfold k1_pay1
  rw [shapeCast_self]
  exact PlainMatmul.apply_zero (M := 5000) (K := 128) (N := 128) (φ₁ := .bf16) (φ₂ := .bf16) x w r c

/-- The projection's block: 2000 rows against the 128 × 1000 weights, plus the bias row in every row. -/
theorem pay2_apply (x : Vec Ideal S2000x128 .f32) (w : Vec Ideal S128x1000 .f32) (b : Vec Ideal S1x1000 .f32)
    (r : Fin 2000) (c : Fin 1000) :
    k2_pay1 (F := Ideal) x w b (ix2 r c) = (∑ k : Fin 128, x (ix2 r k) * w (ix2 k c)) + b (ix2 (0 : Fin 1) c) := by
  unfold k2_pay1
  rw [shapeCast_self, shapeCast_self]
  show FloatOps.matmul (F := Ideal) (DotDims.plain 2000 128 1000) none (x : FVec Ideal ⟨2, ![2000, 128]⟩ .bf16) (w : FVec Ideal ⟨2, ![128, 1000]⟩ .bf16)
      (constant (F := Ideal) ⟨2, ![2000, 1000]⟩ .f32 0x00000000#32) (ix2 r c)
    + broadcastTo ⟨2, ![2000, 1000]⟩ b broadcasts_S1x1000_S2000x1000 (ix2 r c) = _
  rw [PlainMatmul.apply_zero, broadcastTo_1b_ab_apply]

end Cert.KernelIdeal.Entry

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«137804_j46986942218300_1_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LibExactProduct.lean ====
/-
  The exact matrix product as one function of its two operands, entry by entry:
  (x · w)(r, c) = Σ_k x(r, k) · w(k, c) on the extended reals, for an M × K and a K × N matrix.
  The host's contraction of axis 1 against axis 0 (no batch axis) is this function, and so is a product computed row
  block by row block, whatever the tiling of the rows. Also the product plus a bias row added to every row, and the
  host's spelling of that sum: a bias vector laid out as one row, copied into every row, and added.
-/
import proofs.«137804_j46986942218300_1_alg».proof.Proof.LibPlainDot
import Idealize.ShloMosaic.Lib.ValueLayout
import Idealize.ShloMosaic.Lib.Pipeline.Value

noncomputable section

namespace ExactProduct

open Idealize.ShloMosaic Idealize.ShloMosaic.ValueIdx

/-- The exact product of an M × K matrix and a K × N matrix. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_apply {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- The host's contraction of axis 1 against axis 0, no batch axis, is the exact product. -/
theorem hostDot_eq_mm {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral (F := Ideal) d prec x w = mm x w := by
  subst hd
  funext i
  obtain ⟨r, c, rfl⟩ : ∃ (r : Fin M) (c : Fin N), i = ix2 r c := ⟨i 0, i 1, eq_ix2 i⟩
  exact PlainDot.apply prec x w r c

/-- The exact product plus a bias row added to every row. -/
def proj {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => mm x w i + b (ix2 (0 : Fin 1) (i 1))

/-- A bias vector laid out as one row and copied into every row reads, at (r, c), the vector at c. -/
theorem rowOfVector_apply {M N : ℕ} (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 bp) (ix2 r c) = bp (ix1 c) := by
  have hc : c.val < N := c.isLt
  refine (broadcastInDim_apply ![0, 1] h2 _ (ix2 r c) (ix2 (0 : Fin 1) c) (fun a => ?_)).trans
    (broadcastInDim_apply ![1] h1 bp (ix2 (0 : Fin 1) c) (ix1 c) (fun a => ?_))
  · match a with
    | ⟨0, _⟩ => rfl
    | ⟨1, _⟩ =>
      show c.val = if N = 1 then 0 else c.val
      split
      · omega
      · rfl
  · match a with
    | ⟨0, _⟩ =>
      show c.val = if N = 1 then 0 else c.val
      split
      · omega
      · rfl

/-- The host's product plus the bias vector copied into every row is the projection with the vector cast to a row. -/
theorem addRow_eq_proj {M K N : ℕ} (x : (⟨2, ![M, K]⟩ : Shape).Idx → EReal) (w : (⟨2, ![K, N]⟩ : Shape).Idx → EReal)
    (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (mm x w) (broadcastInDim ⟨2, ![M, N]⟩ ![0, 1] h2 (broadcastInDim ⟨2, ![1, N]⟩ ![1] h1 bp))
      = proj x w (shapeCast ⟨2, ![1, N]⟩ bp hc) := by
  funext i
  obtain ⟨r, c, rfl⟩ : ∃ (r : Fin M) (c : Fin N), i = ix2 r c := ⟨i 0, i 1, eq_ix2 i⟩
  show mm x w (ix2 r c) + _ = mm x w (ix2 r c) + shapeCast ⟨2, ![1, N]⟩ bp hc (ix2 (0 : Fin 1) c)
  exact congrArg (mm x w (ix2 r c) + ·) ((rowOfVector_apply bp h1 h2 r c).trans (shapeCast_a_1a_apply bp hc (0 : Fin 1) c).symm)

end ExactProduct

end
-- ==== Proof.CallArrays.lean ====
/-
  What each of the three calls leaves in its result array, as one function of the arrays it finds.

  A call runs its body once per row block: point t loads rows R·t … R·t + R − 1 of the left operand (R = 5000 for the
  two hidden products, 2000 for the projection) and the whole right operand, and writes the block's product back to the
  same rows of the result. The row blocks tile the 100000 rows exactly, so the result array ends holding the exact
  product of the two operand arrays, entry by entry: (x · w)(r, c) = Σ_k x(r, k) · w(k, c); the projection adds the
  bias row to every row.
-/
import proofs.«137804_j46986942218300_1_alg».proof.Proof.Gen.KernelIdeal.Frame
import proofs.«137804_j46986942218300_1_alg».proof.Proof.MatmulEntry
import proofs.«137804_j46986942218300_1_alg».proof.Proof.LibExactProduct
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Calls

open Cert.KernelIdeal Cert.KernelIdeal.Gen ExactProduct

variable (V : (c : Dev nD) → (b : Ref sig .tc) → Buf (Elt Ideal) ((c : Thread nD τ).loc b))

theorem hz : (![0, 0] : Fin 2 → Nat) = fun _ => 0 := funext fun a => by fin_cases a <;> rfl

/-- A block's row p against a block's column q, when they are row (i 0) and column (i 1) of two arrays, sum to the
    arrays' product at i. -/
theorem sum_block {R M K N : ℕ} (X : (⟨2, ![M, K]⟩ : Shape).Idx → EReal) (Y : (⟨2, ![K, N]⟩ : Shape).Idx → EReal)
    (bx : (⟨2, ![R, K]⟩ : Shape).Idx → EReal) (bw : (⟨2, ![K, N]⟩ : Shape).Idx → EReal) (p : Fin R) (q : Fin N)
    (i : (⟨2, ![M, N]⟩ : Shape).Idx)
    (hx : ∀ k, bx (ix2 p k) = X (ix2 (i 0) k)) (hw : ∀ k, bw (ix2 k q) = Y (ix2 k (i 1))) :
    ∑ k : Fin K, bx (ix2 p k) * bw (ix2 k q) = mm X Y i :=
  Finset.sum_congr rfl fun k _ => by rw [hx k, hw k]

/-! ## Call 0: 5000 rows of the left operand per point against the whole right operand -/

/-- Call 0's index maps over its grid: point t takes row block t of the left operand and of the result, and the one
    block of the right operand. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000·t … 5000·t + 4999 of its array. -/
theorem lhs0_apply (c : Dev nD) (t : Fin cfg0.N) (p : Fin 5000) (k : Fin 128) (i : S100000x128.Idx)
    (h0 : (i 0).val = 5000 * t.val + p.val) (h1 : (i 1).val = k.val) :
    (iblk0 V c 0 t : Vec Ideal S5000x128 .f32) (ix2 p k) = (V c main_arg2 : S100000x128.Idx → EReal) i := by
  obtain ⟨e0, e1, -⟩ := idx0 t
  unfold iblk0
  rw [View.read_apply]
  show V c main_arg2 _ = V c main_arg2 _
  congr 1
  funext a
  apply Fin.ext
  match a with
  | ⟨0, _⟩ => show win0_0.index t 0 * 5000 + 1 * p.val = (i 0).val; omega
  | ⟨1, _⟩ => show win0_0.index t 1 * 128 + 1 * k.val = (i 1).val; omega

/-- The right operand's block at every point is its whole array. -/
theorem rhs0_apply (c : Dev nD) (t : Fin cfg0.N) (k : Fin 128) (q : Fin 128) :
    (iblk0 V c 1 t : Vec Ideal S128x128 .f32) (ix2 k q) = (V c main_arg3 : S128x128.Idx → EReal) (ix2 k q) := by
  obtain ⟨-, -, e2, e3, -⟩ := idx0 t
  unfold iblk0
  rw [View.read_apply]
  show V c main_arg3 _ = V c main_arg3 _
  congr 1
  funext a
  apply Fin.ext
  match a with
  | ⟨0, _⟩ => show win0_1.index t 0 * 128 + 1 * k.val = k.val; omega
  | ⟨1, _⟩ => show win0_1.index t 1 * 128 + 1 * q.val = q.val; omega

/-- What point t writes back is block t of the exact product of the two arrays as the call finds them. -/
theorem flushed0 (c : Dev nD) (t : Fin cfg0.N) :
    (dat0 V c).flushed 2 t = ((cfg0.win 2).blk t).view.read (Elt Ideal) (mm (V c main_arg2) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx0 t
  funext j
  obtain ⟨p, q, rfl⟩ : ∃ (p : Fin 5000) (q : Fin 128), j = ix2 p q := ⟨j 0, j 1, eq_ix2 j⟩
  rw [View.read_apply]
  refine (Entry.pay0_apply (iblk0 V c 0 t) (iblk0 V c 1 t) p q).trans ?_
  refine (sum_block (V c main_arg2) (V c main_arg3) (iblk0 V c 0 t) (iblk0 V c 1 t) p q (((cfg0.win 2).blk t).view.emb (ix2 p q))
    (fun k => ?_) (fun k => ?_)).trans rfl
  · refine lhs0_apply V c t p k _ ?_ rfl
    show win0_2.index t 0 * 5000 + 1 * p.val = 5000 * t.val + p.val; omega
  · refine (rhs0_apply V c t k q).trans (congrArg (V c main_arg3) ?_)
    funext a
    apply Fin.ext
    match a with
    | ⟨0, _⟩ => rfl
    | ⟨1, _⟩ => show q.val = win0_2.index t 1 * 128 + 1 * q.val; omega

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row r of the result is written by point r / 5000: the blocks tile the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk0]
  obtain ⟨-, -, -, -, e4, e5⟩ := idx0 ⟨(i 0).val / 5000, by rw [hN]; omega⟩
  intro a
  match a with
  | ⟨0, _⟩ =>
    show win0_2.index _ 0 * 5000 ≤ (i 0).val ∧ (i 0).val < win0_2.index _ 0 * 5000 + 5000
    rw [e4]; show (i 0).val / 5000 * 5000 ≤ (i 0).val ∧ (i 0).val < (i 0).val / 5000 * 5000 + 5000; omega
  | ⟨1, _⟩ =>
    show win0_2.index _ 1 * 128 ≤ (i 1).val ∧ (i 1).val < win0_2.index _ 1 * 128 + 128
    rw [e5]; omega

/-- THE RESULT ARRAY of call 0: the exact product of its two operands as the call finds them. -/
theorem arr0 (c : Dev nD) : (dat0 V c).arrAt 2 cfg0.N = mm (V c main_arg2) (V c main_arg3) :=
  (dat0 V c).arrAt_eq_of_cover 2 _ (fun t _ => flushed0 V c t) cover0

/-! ## Call 1: 5000 rows of the left operand per point against the whole right operand -/

/-- Call 1's index maps over its grid: point t takes row block t of the left operand and of the result, and the one
    block of the right operand. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 5000·t … 5000·t + 4999 of its array. -/
theorem lhs1_apply (c : Dev nD) (t : Fin cfg1.N) (p : Fin 5000) (k : Fin 128) (i : S100000x128.Idx)
    (h0 : (i 0).val = 5000 * t.val + p.val) (h1 : (i 1).val = k.val) :
    (iblk1 V c 0 t : Vec Ideal S5000x128 .f32) (ix2 p k) = (V c main_v45 : S100000x128.Idx → EReal) i := by
  obtain ⟨e0, e1, -⟩ := idx1 t
  unfold iblk1
  rw [View.read_apply]
  show V c main_v45 _ = V c main_v45 _
  congr 1
  funext a
  apply Fin.ext
  match a with
  | ⟨0, _⟩ => show win1_0.index t 0 * 5000 + 1 * p.val = (i 0).val; omega
  | ⟨1, _⟩ => show win1_0.index t 1 * 128 + 1 * k.val = (i 1).val; omega

/-- The right operand's block at every point is its whole array. -/
theorem rhs1_apply (c : Dev nD) (t : Fin cfg1.N) (k : Fin 128) (q : Fin 128) :
    (iblk1 V c 1 t : Vec Ideal S128x128 .f32) (ix2 k q) = (V c main_arg5 : S128x128.Idx → EReal) (ix2 k q) := by
  obtain ⟨-, -, e2, e3, -⟩ := idx1 t
  unfold iblk1
  rw [View.read_apply]
  show V c main_arg5 _ = V c main_arg5 _
  congr 1
  funext a
  apply Fin.ext
  match a with
  | ⟨0, _⟩ => show win1_1.index t 0 * 128 + 1 * k.val = k.val; omega
  | ⟨1, _⟩ => show win1_1.index t 1 * 128 + 1 * q.val = q.val; omega

/-- What point t writes back is block t of the exact product of the two arrays as the call finds them. -/
theorem flushed1 (c : Dev nD) (t : Fin cfg1.N) :
    (dat1 V c).flushed 2 t = ((cfg1.win 2).blk t).view.read (Elt Ideal) (mm (V c main_v45) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, e4, e5⟩ := idx1 t
  funext j
  obtain ⟨p, q, rfl⟩ : ∃ (p : Fin 5000) (q : Fin 128), j = ix2 p q := ⟨j 0, j 1, eq_ix2 j⟩
  rw [View.read_apply]
  refine (Entry.pay1_apply (iblk1 V c 0 t) (iblk1 V c 1 t) p q).trans ?_
  refine (sum_block (V c main_v45) (V c main_arg5) (iblk1 V c 0 t) (iblk1 V c 1 t) p q (((cfg1.win 2).blk t).view.emb (ix2 p q))
    (fun k => ?_) (fun k => ?_)).trans rfl
  · refine lhs1_apply V c t p k _ ?_ rfl
    show win1_2.index t 0 * 5000 + 1 * p.val = 5000 * t.val + p.val; omega
  · refine (rhs1_apply V c t k q).trans (congrArg (V c main_arg5) ?_)
    funext a
    apply Fin.ext
    match a with
    | ⟨0, _⟩ => rfl
    | ⟨1, _⟩ => show q.val = win1_2.index t 1 * 128 + 1 * q.val; omega

/-- An index of the result array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Row r of the result is written by point r / 5000: the blocks tile the array. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_2 _, ?_⟩
  rw [mem_blk1]
  obtain ⟨-, -, -, -, e4, e5⟩ := idx1 ⟨(i 0).val / 5000, by rw [hN]; omega⟩
  intro a
  match a with
  | ⟨0, _⟩ =>
    show win1_2.index _ 0 * 5000 ≤ (i 0).val ∧ (i 0).val < win1_2.index _ 0 * 5000 + 5000
    rw [e4]; show (i 0).val / 5000 * 5000 ≤ (i 0).val ∧ (i 0).val < (i 0).val / 5000 * 5000 + 5000; omega
  | ⟨1, _⟩ =>
    show win1_2.index _ 1 * 128 ≤ (i 1).val ∧ (i 1).val < win1_2.index _ 1 * 128 + 128
    rw [e5]; omega

/-- THE RESULT ARRAY of call 1: the exact product of its two operands as the call finds them. -/
theorem arr1 (c : Dev nD) : (dat1 V c).arrAt 2 cfg1.N = mm (V c main_v45) (V c main_arg5) :=
  (dat1 V c).arrAt_eq_of_cover 2 _ (fun t _ => flushed1 V c t) cover1

/-! ## Call 2: 2000 rows of the hidden state per point against the whole projection matrix, plus the bias row -/

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point t is rows 2000·t … 2000·t + 1999 of its array. -/
theorem lhs2_apply (c : Dev nD) (t : Fin cfg2.N) (p : Fin 2000) (k : Fin 128) (i : S100000x128.Idx)
    (h0 : (i 0).val = 2000 * t.val + p.val) (h1 : (i 1).val = k.val) :
    (iblk2 V c 0 t : Vec Ideal S2000x128 .f32) (ix2 p k) = (V c main_v62 : S100000x128.Idx → EReal) i := by
  obtain ⟨e0, e1, -⟩ := idx2 t
  unfold iblk2
  rw [View.read_apply]
  show V c main_v62 _ = V c main_v62 _
  congr 1
  funext a
  apply Fin.ext
  match a with
  | ⟨0, _⟩ => show win2_0.index t 0 * 2000 + 1 * p.val = (i 0).val; omega
  | ⟨1, _⟩ => show win2_0.index t 1 * 128 + 1 * k.val = (i 1).val; omega

/-- The projection matrix's block at every point is its whole array. -/
theorem rhs2_apply (c : Dev nD) (t : Fin cfg2.N) (k : Fin 128) (q : Fin 1000) :
    (iblk2 V c 1 t : Vec Ideal S128x1000 .f32) (ix2 k q) = (V c main_arg7 : S128x1000.Idx → EReal) (ix2 k q) := by
  obtain ⟨-, -, e2, e3, -⟩ := idx2 t
  unfold iblk2
  rw [View.read_apply]
  show V c main_arg7 _ = V c main_arg7 _
  congr 1
  funext a
  apply Fin.ext
  match a with
  | ⟨0, _⟩ => show win2_1.index t 0 * 128 + 1 * k.val = k.val; omega
  | ⟨1, _⟩ => show win2_1.index t 1 * 1000 + 1 * q.val = q.val; omega

/-- The bias row's block at every point is its whole array. -/
theorem bias2_apply (c : Dev nD) (t : Fin cfg2.N) (q : Fin 1000) :
    (iblk2 V c 2 t : Vec Ideal S1x1000 .f32) (ix2 (0 : Fin 1) q) = (V c main_v63 : S1x1000.Idx → EReal) (ix2 (0 : Fin 1) q) := by
  obtain ⟨-, -, -, -, e4, e5, -⟩ := idx2 t
  unfold iblk2
  rw [View.read_apply]
  show V c main_v63 _ = V c main_v63 _
  congr 1
  funext a
  apply Fin.ext
  match a with
  | ⟨0, _⟩ => show win2_2.index t 0 * 1 + 1 * 0 = 0; omega
  | ⟨1, _⟩ => show win2_2.index t 1 * 1000 + 1 * q.val = q.val; omega

/-- What point t writes back is block t of the projection of the three arrays as the call finds them. -/
theorem flushed2 (c : Dev nD) (t : Fin cfg2.N) :
    (dat2 V c).flushed 3 t = ((cfg2.win 3).blk t).view.read (Elt Ideal) (proj (V c main_v62) (V c main_arg7) (V c main_v63)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x1000) hz, View.ld_unit_zero (S := S1x1000) hz]
  obtain ⟨-, -, -, -, -, -, e6, e7⟩ := idx2 t
  funext j
  obtain ⟨p, q, rfl⟩ : ∃ (p : Fin 2000) (q : Fin 1000), j = ix2 p q := ⟨j 0, j 1, eq_ix2 j⟩
  rw [View.read_apply]
  refine (Entry.pay2_apply (iblk2 V c 0 t) (iblk2 V c 1 t) (iblk2 V c 2 t) p q).trans ?_
  refine congrArg₂ (· + ·) (Finset.sum_congr rfl fun k _ => ?_) ((bias2_apply V c t q).trans (congrArg (V c main_v63) ?_))
  · refine congrArg₂ (· * ·) (lhs2_apply V c t p k _ ?_ rfl) ((rhs2_apply V c t k q).trans (congrArg (V c main_arg7) ?_))
    · show win2_3.index t 0 * 2000 + 1 * p.val = 2000 * t.val + p.val; omega
    · funext a
      apply Fin.ext
      match a with
      | ⟨0, _⟩ => rfl
      | ⟨1, _⟩ => show q.val = win2_3.index t 1 * 1000 + 1 * q.val; omega
  · funext a
    apply Fin.ext
    match a with
    | ⟨0, _⟩ => rfl
    | ⟨1, _⟩ => show q.val = win2_3.index t 1 * 1000 + 1 * q.val; omega

theorem mem_blk2 (t : Fin cfg2.N) (i : S100000x1000.Idx) :
    i ∈ ((cfg2.win 3).blk t).view.set ↔ ∀ a : Fin 2, win2_3.index t a * S2000x1000.size a ≤ (i a).val ∧ (i a).val < win2_3.index t a * S2000x1000.size a + S2000x1000.size a := by
  show i ∈ ((View.whole main_v64).slice (win2_3.rect t)).set ↔ _
  rw [View.set_slice_whole, Rect.mem_set_unit]
  exact Iff.rfl

/-- Row r of the result is written by point r / 2000: the blocks tile the array. -/
theorem cover2 (i : S100000x1000.Idx) :
    ∃ t : Fin cfg2.N, (cfg2.win 3).flush t = true ∧ i ∈ ((cfg2.win 3).blk t).view.set := by
  have hi0 : (i 0).val < 100000 := (i 0).isLt
  have hi1 : (i 1).val < 1000 := (i 1).isLt
  have hN : cfg2.N = 50 := N_2
  refine ⟨⟨(i 0).val / 2000, by rw [hN]; omega⟩, flush2_3 _, ?_⟩
  rw [mem_blk2]
  obtain ⟨-, -, -, -, -, -, e6, e7⟩ := idx2 ⟨(i 0).val / 2000, by rw [hN]; omega⟩
  intro a
  match a with
  | ⟨0, _⟩ =>
    show win2_3.index _ 0 * 2000 ≤ (i 0).val ∧ (i 0).val < win2_3.index _ 0 * 2000 + 2000
    rw [e6]; show (i 0).val / 2000 * 2000 ≤ (i 0).val ∧ (i 0).val < (i 0).val / 2000 * 2000 + 2000; omega
  | ⟨1, _⟩ =>
    show win2_3.index _ 1 * 1000 ≤ (i 1).val ∧ (i 1).val < win2_3.index _ 1 * 1000 + 1000
    rw [e7]; omega

/-- THE RESULT ARRAY of call 2: the projection of its three operands as the call finds them. -/
theorem arr2 (c : Dev nD) : (dat2 V c).arrAt 3 cfg2.N = proj (V c main_v62) (V c main_arg7) (V c main_v63) :=
  (dat2 V c).arrAt_eq_of_cover 3 _ (fun t _ => flushed2 V c t) cover2

end Cert.KernelIdeal.Calls

end
-- ==== Proof.GraphConv.lean ====
/-
  The host side of the network, as functions of arrays.

  From the edge list e (row 0: source nodes, row 1: target nodes) and the edge weights w:
    deg(v)   = Σ over edges into v of w,            d(v) = deg(v)^(-1/2) where deg(v) > 0, else 0,
    norm(j)  = d(src j) · w(j) · d(dst j)           (an index below zero counts from the end),
  and one graph convolution of node features h with bias b:
    conv(h)(v, ·) = Σ over edges j into v of h(src j, ·) · norm(j)  +  b.
  Each is spelt with the host operations the programs apply, in their order; nothing here is opened: both programs
  apply these same operations, and only the dense products between them differ.
-/
import proofs.«137804_j46986942218300_1_alg».proof.Proof.Gen.KernelIdeal
import Idealize.ShloMosaic.PureOps.Ideal

noncomputable section

namespace Cert.KernelIdeal.Net

open Idealize.ShloMosaic Cert.KernelIdeal Cert.KernelIdeal.Facts₀ Cert.KernelIdeal.Facts

abbrev I32 (s : Shape) : Type := IVec s 32
abbrev F32 (s : Shape) : Type := FVec Ideal s .f32

/-- The edges' source nodes: row 0 of the edge list. -/
def srcIdx (e : I32 S2x640000) : I32 S640000 :=
  shapeCast _ (extractStridedSlice S1x640000 ![0, 0] e slices_S2x640000_S1x640000_0_0) shapeCasts_S1x640000_S640000

/-- The edges' target nodes: row 1 of the edge list. -/
def dstIdx (e : I32 S2x640000) : I32 S640000 :=
  shapeCast _ (extractStridedSlice S1x640000 ![1, 0] e slices_S2x640000_S1x640000_1_0) shapeCasts_S1x640000_S640000

/-- A node index below zero counts from the end of the 100000 nodes. -/
def wrapIdx (v : I32 S640000) : I32 S640000 :=
  select (cmpi .slt v (broadcastInDim S640000 ![] bcast_S_S640000 (constantI S_ 32 0#32)))
    (addi v (broadcastInDim S640000 ![] bcast_S_S640000 (constantI S_ 32 100000#32))) v

/-- The weighted in-degree of every node. -/
def degree (e : I32 S2x640000) (w : F32 S640000) : F32 S100000 :=
  Host.scatterAdd (F := Ideal) scatter_S100000_S640000x1_S640000_n_0_0_1 (broadcastInDim S100000 ![] bcast_S_S100000 (constant (F := Ideal) S_ .f32 0x00000000#32))
    (broadcastInDim S640000x1 ![0] bcast_S640000_S640000x1_0 (dstIdx e)) w

/-- deg^(-1/2) where the degree is positive (the degree first raised to at least 1e-30), zero elsewhere. -/
def degInvSqrt (e : I32 S2x640000) (w : F32 S640000) : F32 S100000 :=
  select (cmpf (F := Ideal) .ogt (degree e w) (broadcastInDim S100000 ![] bcast_S_S100000 (constant (F := Ideal) S_ .f32 0x00000000#32)))
    (Host.rsqrt (F := Ideal) (maximumf (F := Ideal) (degree e w) (broadcastInDim S100000 ![] bcast_S_S100000 (constant (F := Ideal) S_ .f32 0x0DA24260#32))))
    (broadcastInDim S100000 ![] bcast_S_S100000 (id (constant (F := Ideal) S_ .f32 0x00000000#32)))

/-- The symmetric normalisation of every edge: d(src) · w · d(dst). -/
def edgeNorm (e : I32 S2x640000) (w : F32 S640000) : F32 S640000 :=
  mulf (F := Ideal) (mulf (F := Ideal) (Host.gather gather_S100000_S640000x1_S640000_n_0_n_n_0_1_1 (degInvSqrt e w)
        (broadcastInDim S640000x1 ![0] bcast_S640000_S640000x1_0 (wrapIdx (srcIdx e)))) w)
    (Host.gather gather_S100000_S640000x1_S640000_n_0_n_n_0_1_1 (degInvSqrt e w)
        (broadcastInDim S640000x1 ![0] bcast_S640000_S640000x1_0 (wrapIdx (dstIdx e))))

/-- One aggregation: gather the source rows, scale by the edge normalisation, add into the target rows, add the bias. -/
def conv (h : F32 S100000x128) (src dst : I32 S640000) (nrm : F32 S640000) (b : F32 S128) : F32 S100000x128 :=
  addf (F := Ideal)
    (Host.scatterAdd (F := Ideal) scatter_S100000x128_S640000x1_S640000x128_1_0_0_1
      (broadcastInDim S100000x128 ![] bcast_S_S100000x128 (constant (F := Ideal) S_ .f32 0x00000000#32))
      (broadcastInDim S640000x1 ![0] bcast_S640000_S640000x1_0 dst)
      (mulf (F := Ideal) (Host.gather gather_S100000x128_S640000x1_S640000x128_1_0_n_n_0_1_1128 h
              (broadcastInDim S640000x1 ![0] bcast_S640000_S640000x1_0 (wrapIdx src)))
            (broadcastInDim S640000x128 ![0, 1] bcast_S640000x1_S640000x128_0_1
              (broadcastInDim S640000x1 ![0] bcast_S640000_S640000x1_0 nrm))))
    (broadcastInDim S100000x128 ![0, 1] bcast_S1x128_S100000x128_0_1 (broadcastInDim S1x128 ![1] bcast_S128_S1x128_1 b))

end Cert.KernelIdeal.Net

end
-- ==== Proof.HostStages.lean ====
/-
  The stretches of host operations between the calls, each read at the buffers a later step uses.

  Before the first product the host computes, from the edge list and the edge weights, the source and target node of
  every edge and the edge normalisation; after each of the two hidden products it aggregates the product's rows along
  the edges and adds the layer's bias; before the projection it also lays the output bias out as one row. A stretch
  leaves every buffer it does not write as it found it.
-/
import proofs.«137804_j46986942218300_1_alg».proof.Proof.Gen.KernelIdeal.Launch
import proofs.«137804_j46986942218300_1_alg».proof.Proof.GraphConv
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.KernelIdeal.Net Cert.KernelIdeal.Facts₀ Cert.KernelIdeal.Facts

variable (W : Valuation τ sig (Elt Ideal))

/-! ## Before the first product: the edges' nodes and the edge normalisation -/

theorem entry_src : after hostOps0_2 (after hostOps0_1 (after hostOps0 W)) (Proc.devRef .tc main_v1) = srcIdx (W (Proc.devRef .tc main_arg0)) := by
  after_results_simp <;> rfl

theorem entry_dst : after hostOps0_2 (after hostOps0_1 (after hostOps0 W)) (Proc.devRef .tc main_v3) = dstIdx (W (Proc.devRef .tc main_arg0)) := by
  after_results_simp <;> rfl

theorem entry_norm : after hostOps0_2 (after hostOps0_1 (after hostOps0 W)) (Proc.devRef .tc main_v28)
    = edgeNorm (W (Proc.devRef .tc main_arg0)) (W (Proc.devRef .tc main_arg1)) := by
  after_results_simp
  simp only [TRef.toBuf, TRef.ofBuf, cast_eq]
  rfl

theorem entry_arg2 : after hostOps0_2 (after hostOps0_1 (after hostOps0 W)) (Proc.devRef .tc main_arg2) = W (Proc.devRef .tc main_arg2) := by
  after_results_simp <;> rfl

theorem entry_arg3 : after hostOps0_2 (after hostOps0_1 (after hostOps0 W)) (Proc.devRef .tc main_arg3) = W (Proc.devRef .tc main_arg3) := by
  after_results_simp <;> rfl

theorem entry_arg4 : after hostOps0_2 (after hostOps0_1 (after hostOps0 W)) (Proc.devRef .tc main_arg4) = W (Proc.devRef .tc main_arg4) := by
  after_results_simp <;> rfl

theorem entry_arg5 : after hostOps0_2 (after hostOps0_1 (after hostOps0 W)) (Proc.devRef .tc main_arg5) = W (Proc.devRef .tc main_arg5) := by
  after_results_simp <;> rfl

theorem entry_arg6 : after hostOps0_2 (after hostOps0_1 (after hostOps0 W)) (Proc.devRef .tc main_arg6) = W (Proc.devRef .tc main_arg6) := by
  after_results_simp <;> rfl

theorem entry_arg7 : after hostOps0_2 (after hostOps0_1 (after hostOps0 W)) (Proc.devRef .tc main_arg7) = W (Proc.devRef .tc main_arg7) := by
  after_results_simp <;> rfl

theorem entry_arg8 : after hostOps0_2 (after hostOps0_1 (after hostOps0 W)) (Proc.devRef .tc main_arg8) = W (Proc.devRef .tc main_arg8) := by
  after_results_simp <;> rfl

/-! ## After the first product: the first layer's aggregation -/

theorem layer1 : after hostOps1 W (Proc.devRef .tc main_v45)
    = conv (W (Proc.devRef .tc main_v29)) (W (Proc.devRef .tc main_v1)) (W (Proc.devRef .tc main_v3))
        (W (Proc.devRef .tc main_v28)) (W (Proc.devRef .tc main_arg4)) := by
  after_results_simp <;> rfl

theorem keep1_v1 : after hostOps1 W (Proc.devRef .tc main_v1) = W (Proc.devRef .tc main_v1) := by
  after_results_simp <;> rfl

theorem keep1_v3 : after hostOps1 W (Proc.devRef .tc main_v3) = W (Proc.devRef .tc main_v3) := by
  after_results_simp <;> rfl

theorem keep1_v28 : after hostOps1 W (Proc.devRef .tc main_v28) = W (Proc.devRef .tc main_v28) := by
  after_results_simp <;> rfl

theorem keep1_arg5 : after hostOps1 W (Proc.devRef .tc main_arg5) = W (Proc.devRef .tc main_arg5) := by
  after_results_simp <;> rfl

theorem keep1_arg6 : after hostOps1 W (Proc.devRef .tc main_arg6) = W (Proc.devRef .tc main_arg6) := by
  after_results_simp <;> rfl

theorem keep1_arg7 : after hostOps1 W (Proc.devRef .tc main_arg7) = W (Proc.devRef .tc main_arg7) := by
  after_results_simp <;> rfl

theorem keep1_arg8 : after hostOps1 W (Proc.devRef .tc main_arg8) = W (Proc.devRef .tc main_arg8) := by
  after_results_simp <;> rfl

/-! ## After the second product: the second layer's aggregation, and the output bias as a row -/

theorem layer2 : after hostOps2 W (Proc.devRef .tc main_v62)
    = conv (W (Proc.devRef .tc main_v46)) (W (Proc.devRef .tc main_v1)) (W (Proc.devRef .tc main_v3))
        (W (Proc.devRef .tc main_v28)) (W (Proc.devRef .tc main_arg6)) := by
  after_results_simp <;> rfl

theorem biasRow : after hostOps2 W (Proc.devRef .tc main_v63)
    = (shapeCast _ (W (Proc.devRef .tc main_arg8)) Facts₀.shapeCasts_S1000_S1x1000 : F32 S1x1000) := by
  after_results_simp <;> rfl

theorem keep2_arg7 : after hostOps2 W (Proc.devRef .tc main_arg7) = W (Proc.devRef .tc main_arg7) := by
  after_results_simp <;> rfl

end Cert.KernelIdeal.Stages

end
-- ==== Proof.Network.lean ====
/-
  The whole network as one function of the nine argument arrays: two graph convolutions, each a dense product followed by
  the aggregation along the edges, then the dense projection with its bias,
    predict = (conv(conv(x · W1) · W2)) · Wp + bp,
  the edge normalisation computed once from the edge list and the edge weights.
-/
import proofs.«137804_j46986942218300_1_alg».proof.Proof.GraphConv
import proofs.«137804_j46986942218300_1_alg».proof.Proof.LibExactProduct

noncomputable section

namespace Cert.KernelIdeal.Net

open Idealize.ShloMosaic Cert.KernelIdeal Cert.KernelIdeal.Facts₀ Cert.KernelIdeal.Facts ExactProduct

/-- The network's output: per node, the scores of the 1000 classes. -/
def predict (e : I32 S2x640000) (w : F32 S640000) (x : F32 S100000x128) (w1 : F32 S128x128) (b1 : F32 S128)
    (w2 : F32 S128x128) (b2 : F32 S128) (wp : F32 S128x1000) (bp : F32 S1000) : F32 S100000x1000 :=
  proj (conv (mm (conv (mm x w1) (srcIdx e) (dstIdx e) (edgeNorm e w) b1) w2) (srcIdx e) (dstIdx e) (edgeNorm e w) b2) wp
    (shapeCast S1x1000 bp shapeCasts_S1000_S1x1000)

end Cert.KernelIdeal.Net

end
-- ==== Proof.KernelValue.lean ====
/-
  The kernel program's result array as the network's function of the argument arrays.

  The buffer contents are followed through the eight segments. At the first call's entry the source and target nodes,
  the edge normalisation and the arguments are in place; the call leaves x · W1 in its result array and touches nothing
  else; the next stretch aggregates it into the first hidden state and keeps what later steps read; the second call
  leaves (hidden state) · W2; the last stretch aggregates again and lays the bias out as a row; the projection's result
  array is the network's output.
-/
import proofs.«137804_j46986942218300_1_alg».proof.Proof.Gen.KernelIdeal.Frame
import proofs.«137804_j46986942218300_1_alg».proof.Proof.CallArrays
import proofs.«137804_j46986942218300_1_alg».proof.Proof.HostStages
import proofs.«137804_j46986942218300_1_alg».proof.Proof.Network

set_option maxRecDepth 16384

noncomputable section

namespace Cert.KernelIdeal.Value

open Idealize.ShloMosaic Idealize.ShloMosaic.TcCoe Idealize.SL.Sem
open Cert.KernelIdeal Cert.KernelIdeal.Gen Cert.KernelIdeal.Net ExactProduct

variable (m : (ℓ : Loc nD τ sig) → Buf (Elt Ideal) ℓ) (ρ : Dev nD → PrngReg) (c : Dev nD)

/-! ## At the first call's entry -/

theorem e_src : W3 m ρ c (Proc.devRef .tc main_v1) = srcIdx (m ((c.tc : Thread nD τ).loc main_arg0)) := Stages.entry_src (W0 m ρ c)
theorem e_dst : W3 m ρ c (Proc.devRef .tc main_v3) = dstIdx (m ((c.tc : Thread nD τ).loc main_arg0)) := Stages.entry_dst (W0 m ρ c)
theorem e_nrm : W3 m ρ c (Proc.devRef .tc main_v28) = edgeNorm (m ((c.tc : Thread nD τ).loc main_arg0)) (m ((c.tc : Thread nD τ).loc main_arg1)) := Stages.entry_norm (W0 m ρ c)
theorem e_arg2 : W3 m ρ c (Proc.devRef .tc main_arg2) = m ((c.tc : Thread nD τ).loc main_arg2) := Stages.entry_arg2 (W0 m ρ c)
theorem e_arg3 : W3 m ρ c (Proc.devRef .tc main_arg3) = m ((c.tc : Thread nD τ).loc main_arg3) := Stages.entry_arg3 (W0 m ρ c)
theorem e_arg4 : W3 m ρ c (Proc.devRef .tc main_arg4) = m ((c.tc : Thread nD τ).loc main_arg4) := Stages.entry_arg4 (W0 m ρ c)
theorem e_arg5 : W3 m ρ c (Proc.devRef .tc main_arg5) = m ((c.tc : Thread nD τ).loc main_arg5) := Stages.entry_arg5 (W0 m ρ c)
theorem e_arg6 : W3 m ρ c (Proc.devRef .tc main_arg6) = m ((c.tc : Thread nD τ).loc main_arg6) := Stages.entry_arg6 (W0 m ρ c)
theorem e_arg7 : W3 m ρ c (Proc.devRef .tc main_arg7) = m ((c.tc : Thread nD τ).loc main_arg7) := Stages.entry_arg7 (W0 m ρ c)
theorem e_arg8 : W3 m ρ c (Proc.devRef .tc main_arg8) = m ((c.tc : Thread nD τ).loc main_arg8) := Stages.entry_arg8 (W0 m ρ c)

/-! ## After the first call -/

theorem c0_out : W4 m ρ c (Proc.devRef .tc main_v29) = mm (m ((c.tc : Thread nD τ).loc main_arg2)) (m ((c.tc : Thread nD τ).loc main_arg3)) :=
  (W4_arr m ρ c 2).trans ((Calls.arr0 (V3 m ρ) c).trans (congrArg₂ mm (e_arg2 m ρ c) (e_arg3 m ρ c)))
theorem c0_src : W4 m ρ c (Proc.devRef .tc main_v1) = srcIdx (m ((c.tc : Thread nD τ).loc main_arg0)) := (W4_of_ne m ρ c main_v1 (by decide)).trans (e_src m ρ c)
theorem c0_dst : W4 m ρ c (Proc.devRef .tc main_v3) = dstIdx (m ((c.tc : Thread nD τ).loc main_arg0)) := (W4_of_ne m ρ c main_v3 (by decide)).trans (e_dst m ρ c)
theorem c0_nrm : W4 m ρ c (Proc.devRef .tc main_v28) = edgeNorm (m ((c.tc : Thread nD τ).loc main_arg0)) (m ((c.tc : Thread nD τ).loc main_arg1)) := (W4_of_ne m ρ c main_v28 (by decide)).trans (e_nrm m ρ c)
theorem c0_arg4 : W4 m ρ c (Proc.devRef .tc main_arg4) = m ((c.tc : Thread nD τ).loc main_arg4) := (W4_of_ne m ρ c main_arg4 (by decide)).trans (e_arg4 m ρ c)
theorem c0_arg5 : W4 m ρ c (Proc.devRef .tc main_arg5) = m ((c.tc : Thread nD τ).loc main_arg5) := (W4_of_ne m ρ c main_arg5 (by decide)).trans (e_arg5 m ρ c)
theorem c0_arg6 : W4 m ρ c (Proc.devRef .tc main_arg6) = m ((c.tc : Thread nD τ).loc main_arg6) := (W4_of_ne m ρ c main_arg6 (by decide)).trans (e_arg6 m ρ c)
theorem c0_arg7 : W4 m ρ c (Proc.devRef .tc main_arg7) = m ((c.tc : Thread nD τ).loc main_arg7) := (W4_of_ne m ρ c main_arg7 (by decide)).trans (e_arg7 m ρ c)
theorem c0_arg8 : W4 m ρ c (Proc.devRef .tc main_arg8) = m ((c.tc : Thread nD τ).loc main_arg8) := (W4_of_ne m ρ c main_arg8 (by decide)).trans (e_arg8 m ρ c)

/-! ## After the first aggregation -/

/-- The first hidden state. -/
abbrev hidden1 : F32 S100000x128 :=
  conv (mm (m ((c.tc : Thread nD τ).loc main_arg2)) (m ((c.tc : Thread nD τ).loc main_arg3))) (srcIdx (m ((c.tc : Thread nD τ).loc main_arg0))) (dstIdx (m ((c.tc : Thread nD τ).loc main_arg0))) (edgeNorm (m ((c.tc : Thread nD τ).loc main_arg0)) (m ((c.tc : Thread nD τ).loc main_arg1))) (m ((c.tc : Thread nD τ).loc main_arg4))

theorem h1_out : W5 m ρ c (Proc.devRef .tc main_v45) = hidden1 m c :=
  (Stages.layer1 (W4 m ρ c)).trans (by rw [c0_out, c0_src, c0_dst, c0_nrm, c0_arg4])
theorem h1_src : W5 m ρ c (Proc.devRef .tc main_v1) = srcIdx (m ((c.tc : Thread nD τ).loc main_arg0)) := (Stages.keep1_v1 (W4 m ρ c)).trans (c0_src m ρ c)
theorem h1_dst : W5 m ρ c (Proc.devRef .tc main_v3) = dstIdx (m ((c.tc : Thread nD τ).loc main_arg0)) := (Stages.keep1_v3 (W4 m ρ c)).trans (c0_dst m ρ c)
theorem h1_nrm : W5 m ρ c (Proc.devRef .tc main_v28) = edgeNorm (m ((c.tc : Thread nD τ).loc main_arg0)) (m ((c.tc : Thread nD τ).loc main_arg1)) := (Stages.keep1_v28 (W4 m ρ c)).trans (c0_nrm m ρ c)
theorem h1_arg5 : W5 m ρ c (Proc.devRef .tc main_arg5) = m ((c.tc : Thread nD τ).loc main_arg5) := (Stages.keep1_arg5 (W4 m ρ c)).trans (c0_arg5 m ρ c)
theorem h1_arg6 : W5 m ρ c (Proc.devRef .tc main_arg6) = m ((c.tc : Thread nD τ).loc main_arg6) := (Stages.keep1_arg6 (W4 m ρ c)).trans (c0_arg6 m ρ c)
theorem h1_arg7 : W5 m ρ c (Proc.devRef .tc main_arg7) = m ((c.tc : Thread nD τ).loc main_arg7) := (Stages.keep1_arg7 (W4 m ρ c)).trans (c0_arg7 m ρ c)
theorem h1_arg8 : W5 m ρ c (Proc.devRef .tc main_arg8) = m ((c.tc : Thread nD τ).loc main_arg8) := (Stages.keep1_arg8 (W4 m ρ c)).trans (c0_arg8 m ρ c)

/-! ## After the second call -/

theorem c1_out : W6 m ρ c (Proc.devRef .tc main_v46) = mm (hidden1 m c) (m ((c.tc : Thread nD τ).loc main_arg5)) :=
  (W6_arr m ρ c 2).trans ((Calls.arr1 (V5 m ρ) c).trans (congrArg₂ mm (h1_out m ρ c) (h1_arg5 m ρ c)))
theorem c1_src : W6 m ρ c (Proc.devRef .tc main_v1) = srcIdx (m ((c.tc : Thread nD τ).loc main_arg0)) := (W6_of_ne m ρ c main_v1 (by decide)).trans (h1_src m ρ c)
theorem c1_dst : W6 m ρ c (Proc.devRef .tc main_v3) = dstIdx (m ((c.tc : Thread nD τ).loc main_arg0)) := (W6_of_ne m ρ c main_v3 (by decide)).trans (h1_dst m ρ c)
theorem c1_nrm : W6 m ρ c (Proc.devRef .tc main_v28) = edgeNorm (m ((c.tc : Thread nD τ).loc main_arg0)) (m ((c.tc : Thread nD τ).loc main_arg1)) := (W6_of_ne m ρ c main_v28 (by decide)).trans (h1_nrm m ρ c)
theorem c1_arg6 : W6 m ρ c (Proc.devRef .tc main_arg6) = m ((c.tc : Thread nD τ).loc main_arg6) := (W6_of_ne m ρ c main_arg6 (by decide)).trans (h1_arg6 m ρ c)
theorem c1_arg7 : W6 m ρ c (Proc.devRef .tc main_arg7) = m ((c.tc : Thread nD τ).loc main_arg7) := (W6_of_ne m ρ c main_arg7 (by decide)).trans (h1_arg7 m ρ c)
theorem c1_arg8 : W6 m ρ c (Proc.devRef .tc main_arg8) = m ((c.tc : Thread nD τ).loc main_arg8) := (W6_of_ne m ρ c main_arg8 (by decide)).trans (h1_arg8 m ρ c)

/-! ## After the second aggregation -/

/-- The second hidden state. -/
abbrev hidden2 : F32 S100000x128 :=
  conv (mm (hidden1 m c) (m ((c.tc : Thread nD τ).loc main_arg5))) (srcIdx (m ((c.tc : Thread nD τ).loc main_arg0))) (dstIdx (m ((c.tc : Thread nD τ).loc main_arg0))) (edgeNorm (m ((c.tc : Thread nD τ).loc main_arg0)) (m ((c.tc : Thread nD τ).loc main_arg1))) (m ((c.tc : Thread nD τ).loc main_arg6))

theorem h2_out : W7 m ρ c (Proc.devRef .tc main_v62) = hidden2 m c :=
  (Stages.layer2 (W6 m ρ c)).trans (by rw [c1_out, c1_src, c1_dst, c1_nrm, c1_arg6])
theorem h2_bias : W7 m ρ c (Proc.devRef .tc main_v63) = (shapeCast S1x1000 (m ((c.tc : Thread nD τ).loc main_arg8)) shapeCasts_S1000_S1x1000 : F32 S1x1000) :=
  (Stages.biasRow (W6 m ρ c)).trans (by rw [c1_arg8])
theorem h2_arg7 : W7 m ρ c (Proc.devRef .tc main_arg7) = m ((c.tc : Thread nD τ).loc main_arg7) := (Stages.keep2_arg7 (W6 m ρ c)).trans (c1_arg7 m ρ c)

/-! ## After the projection -/

/-- THE RESULT ARRAY after the run is the network's output of the argument arrays. -/
theorem result : W8 m ρ c (Proc.devRef .tc main_v64)
    = predict (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W8_arr m ρ c 3).trans ((Calls.arr2 (V7 m ρ) c).trans (by
    rw [show V7 m ρ c main_v62 = hidden2 m c from h2_out m ρ c, show V7 m ρ c main_arg7 = m ((c.tc : Thread nD τ).loc main_arg7) from h2_arg7 m ρ c,
      show V7 m ρ c main_v63 = _ from h2_bias m ρ c]
    rfl))

end Cert.KernelIdeal.Value

end
-- ==== Proof.ReferenceValue.lean ====
/-
  The reference program's result as the same function of the argument arrays.

  The reference computes the edge normalisation twice (once per layer) from the same edge list and weights, takes each
  dense product as one host contraction, and adds the output bias as a vector copied into every row. A host contraction
  of axis 1 against axis 0 is the exact matrix product; the bias vector copied into every row is the bias row of the
  projection; everything else is operation for operation the network's own spelling.
-/
import proofs.«137804_j46986942218300_1_alg».proof.Proof.Gen.ReferenceIdeal.Run
import proofs.«137804_j46986942218300_1_alg».proof.Proof.Network

set_option maxRecDepth 16384

noncomputable section

namespace Cert.ReferenceIdeal.Net

open Idealize.ShloMosaic Idealize.ShloMosaic.TcCoe Idealize.SL.Sem
open Cert.ReferenceIdeal ExactProduct

/-- The hidden layers' contraction is the exact 100000 × 128 by 128 × 128 product. -/
theorem dotHidden (x : FVec Ideal S100000x128 .f32) (w : FVec Ideal S128x128 .f32) :
    Host.dotGeneral (F := Ideal) dot_S100000x128_S128x128_S100000x128_1_0_0_1_n_n none x w = mm x w :=
  hostDot_eq_mm _ rfl none x w

/-- The projection's contraction is the exact 100000 × 128 by 128 × 1000 product. -/
theorem dotOut (x : FVec Ideal S100000x128 .f32) (w : FVec Ideal S128x1000 .f32) :
    Host.dotGeneral (F := Ideal) dot_S100000x128_S128x1000_S100000x1000_1_0_0_1_n_n none x w = mm x w :=
  hostDot_eq_mm _ rfl none x w

variable (m : (ℓ : Loc nD τ sig) → Buf (Elt Ideal) ℓ) (c : Dev nD)

set_option maxHeartbeats 4000000 in
/-- THE REFERENCE'S RESULT is the network's output of the argument arrays. -/
theorem result : Cert.ReferenceIdeal.Value.res_main_v95 (F := Ideal) m c
    = Cert.KernelIdeal.Net.predict (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  unfold Cert.ReferenceIdeal.Value.res_main_v95
  simp only [dotHidden, dotOut]
  refine (addRow_eq_proj _ _ _ _ _ Cert.KernelIdeal.Facts₀.shapeCasts_S1000_S1x1000).trans ?_
  rfl

end Cert.ReferenceIdeal.Net

end
-- ==== Proof.lean ====
/-
  A two-layer graph convolutional network followed by a dense projection, computed two ways.

  The kernel program takes the three dense products (node features × W1, first hidden state × W2, second hidden state ×
  Wp plus the bias) as tiled matrix-unit products over row blocks — 5000 rows per block for the hidden layers, 2000 for
  the projection, operands narrowed to bf16 — and leaves the aggregation along the edges to host operations; the
  reference takes each product as one host contraction. On the extended reals narrowing changes nothing, a row block of
  a product is the product's rows, and the blocks tile the 100000 rows, so each call's result array is the exact product
  (x · w)(r, c) = Σ_k x(r, k) · w(k, c). Every other operation is the same in both programs, in the same order, on the
  same operands. Both results are therefore one function of the nine argument arrays. No law of arithmetic beyond the
  definition of the product is used, so the precondition (finite inputs) is not opened.
-/
import proofs.«137804_j46986942218300_1_alg».proof.Defs
import proofs.«137804_j46986942218300_1_alg».proof.Proof.Gen.Kernel
import proofs.«137804_j46986942218300_1_alg».proof.Proof.Gen.Kernel.Frame
import proofs.«137804_j46986942218300_1_alg».proof.Proof.Gen.KernelIdeal
import proofs.«137804_j46986942218300_1_alg».proof.Proof.Gen.KernelIdeal.Frame
import proofs.«137804_j46986942218300_1_alg».proof.Proof.Gen.ReferenceIdeal
import proofs.«137804_j46986942218300_1_alg».proof.Proof.Gen.ReferenceIdeal.Run
import proofs.«137804_j46986942218300_1_alg».proof.Proof.Gen.Pre_finite_inputs
import proofs.«137804_j46986942218300_1_alg».proof.Proof.KernelResult
import proofs.«137804_j46986942218300_1_alg».proof.Proof.KernelValue
import proofs.«137804_j46986942218300_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network's output of the argument arrays in their result arrays. -/
theorem algebraic : Cert.algebraic_KernelIdeal_ReferenceIdeal := by
  intro m ρ m' ρ' _ hagree
  refine ⟨fun c => Cert.KernelIdeal.Net.predict
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Value.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Net.result, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
